-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x1024x768 : Shape := ⟨3, ![8, 1024, 768]⟩
abbrev S512x512 : Shape := ⟨2, ![512, 512]⟩
abbrev S512 : Shape := ⟨1, ![512]⟩
abbrev S768x512 : Shape := ⟨2, ![768, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x1024x768 : S_.BroadcastsInDim S8x1024x768 (![] : Fin 0 → Fin S8x1024x768.rank)
  reducesTo_S8x1024x768_S_d0_1_2 : S8x1024x768.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S768x512 : S_.BroadcastsInDim S768x512 (![] : Fin 0 → Fin S768x512.rank)
  reducesTo_S768x512_S_d0_1 : S768x512.ReducesTo [0, 1] S_

variable [Facts]

def fn_part2 {F : FTy → Type} [FloatOps F] (main_arg7 : FVec F S512 .f32) (main_arg8 : FVec F S512x512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S768x512 .f32) (main_arg5 : FVec F S512 .f32) (main_arg6 : FVec F S768x512 .f32) (main_arg7 : FVec F S512 .f32) (main_arg8 : FVec F S512x512 .f32) (main_arg9 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S768x512 .f32 := Host.absf main_arg4
  let main_cst_6 : FVec F S_ .f32 := constant S_ .f32 0x7F800000#32
  let main_v20 : FVec F S768x512 .f32 := broadcastInDim S768x512 ![] bcast_S_S768x512 main_cst_6
  let main_v21 : IVec S768x512 1 := cmpf .olt main_v19 main_v20
  let main_c_7 : IVec S_ 1 := constantI S_ 1 1#1
  let main_v22 : IVec S_ 1 := (fun x v => Host.reduce IntOp.andi x v reducesTo_S768x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S768x512 .f32 := Host.absf main_arg6
  let main_cst_10 : FVec F S_ .f32 := constant S_ .f32 0x7F800000#32
  let main_v30 : FVec F S768x512 .f32 := broadcastInDim S768x512 ![] bcast_S_S768x512 main_cst_10
  let main_v31 : IVec S768x512 1 := cmpf .olt main_v29 main_v30
  let main_c_11 : IVec S_ 1 := constantI S_ 1 1#1
  let main_v32 : IVec S_ 1 := (fun x v => Host.reduce IntOp.andi x v reducesTo_S768x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x4096x512 .f32) (main_arg1 : FVec F S8x1024x768 .f32) (main_arg2 : FVec F S512x512 .f32) (main_arg3 : FVec F S512 .f32) (main_arg4 : FVec F S768x512 .f32) (main_arg5 : FVec F S512 .f32) (main_arg6 : FVec F S768x512 .f32) (main_arg7 : FVec F S512 .f32) (main_arg8 : FVec F S512x512 .f32) (main_arg9 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x1024x768 .f32 := Host.absf main_arg1
  let main_cst_0 : FVec F S_ .f32 := constant S_ .f32 0x7F800000#32
  let main_v5 : FVec F S8x1024x768 .f32 := broadcastInDim S8x1024x768 ![] bcast_S_S8x1024x768 main_cst_0
  let main_v6 : IVec S8x1024x768 1 := cmpf .olt main_v4 main_v5
  let main_c_1 : IVec S_ 1 := constantI S_ 1 1#1
  let main_v7 : IVec S_ 1 := (fun x v => Host.reduce IntOp.andi x v reducesTo_S8x1024x768_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S8x4096x512 : Shape := ⟨3, ![8, 4096, 512]⟩
abbrev S8x1024x768 : Shape := ⟨3, ![8, 1024, 768]⟩
abbrev S512x512 : Shape := ⟨2, ![512, 512]⟩
abbrev S512 : Shape := ⟨1, ![512]⟩
abbrev S768x512 : Shape := ⟨2, ![768, 512]⟩
abbrev S1x1024x512 : Shape := ⟨3, ![1, 1024, 512]⟩
abbrev S1x1024x768 : Shape := ⟨3, ![1, 1024, 768]⟩
abbrev S1024x512 : Shape := ⟨2, ![1024, 512]⟩
abbrev S1024x768 : Shape := ⟨2, ![1024, 768]⟩
abbrev S1x512 : Shape := ⟨2, ![1, 512]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 15
  | .vmem => 16
  | .smem => 0
  | _ => 0

abbrev bufTy : (tb : Table) → Fin (tcTables nBuf tb) → BufTy
  | .hbm, ⟨0, _⟩ => ⟨S8x4096x512, .f32⟩
  | .hbm, ⟨1, _⟩ => ⟨S8x1024x768, .f32⟩
  | .hbm, ⟨2, _⟩ => ⟨S512x512, .f32⟩
  | .hbm, ⟨3, _⟩ => ⟨S512, .f32⟩
  | .hbm, ⟨4, _⟩ => ⟨S768x512, .f32⟩
  | .hbm, ⟨5, _⟩ => ⟨S512, .f32⟩
  | .hbm, ⟨6, _⟩ => ⟨S768x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .bf16⟩
  | .hbm, ⟨11, _⟩ => ⟨S768x512, .bf16⟩
  | .hbm, ⟨12, _⟩ => ⟨S768x512, .bf16⟩
  | .hbm, ⟨13, _⟩ => ⟨S512x512, .bf16⟩
  | .hbm, ⟨14, _⟩ => ⟨S8x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x768, .f32⟩
  | .local _ .vmem, ⟨3, _⟩ => ⟨S1x1024x768, .f32⟩
  | .local _ .vmem, ⟨4, _⟩ => ⟨S512x512, .bf16⟩
  | .local _ .vmem, ⟨5, _⟩ => ⟨S512, .f32⟩
  | .local _ .vmem, ⟨6, _⟩ => ⟨S768x512, .bf16⟩
  | .local _ .vmem, ⟨7, _⟩ => ⟨S512, .f32⟩
  | .local _ .vmem, ⟨8, _⟩ => ⟨S768x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S1x1024x512, .f32⟩
  | .local _ .vmem, ⟨13, _⟩ => ⟨S1x1024x512, .f32⟩
  | .local _ .vmem, ⟨14, _⟩ => ⟨S1024x512, .bf16⟩
  | .local _ .vmem, ⟨15, _⟩ => ⟨S1024x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S1024x512_p1_0_S512x1024 : S1024x512.Transposes [1, 0] S512x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x512_S1x1024x512 : S1024x512.ShapeCasts S1x1024x512
  dot_S1024x768_S768x512_S1024x512_1_0_0_1_n_n_wf : DotDims.WF S1024x768 S768x512 S1024x512 [1] [0] [0] [1] [] []
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x4096x512.size a
  hwx0_0 : ∀ i : grid0.Coords, EltTy.bits .f32 = 32 ∨ (Rect.block (s := S8x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S8x1024x768.size a
  hwx0_1 : ∀ i : grid0.Coords, EltTy.bits .f32 = 32 ∨ (Rect.block (s := S8x1024x768) S1x1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x512.size a ≤ S768x512.size a
  hwx0_4 : ∀ i : grid0.Coords, EltTy.bits .bf16 = 32 ∨ (Rect.block (s := S768x512) S768x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x512.size a ≤ S768x512.size a
  hwx0_6 : ∀ i : grid0.Coords, EltTy.bits .bf16 = 32 ∨ (Rect.block (s := S768x512) S768x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x512.size a ≤ S8x4096x512.size a
  hwx0_10 : ∀ i : grid0.Coords, EltTy.bits .f32 = 32 ∨ (Rect.block (s := S8x4096x512) S1x1024x512.size (cc0_transform_10 i) (hinb0_10 i)).WholeWords (EltTy.packing .f32)

variable [Facts₀]

def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S768x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S768x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x1024x768 : Shape := ⟨3, ![8, 1024, 768]⟩
abbrev S512x512 : Shape := ⟨2, ![512, 512]⟩
abbrev S512 : Shape := ⟨1, ![512]⟩
abbrev S768x512 : Shape := ⟨2, ![768, 512]⟩
abbrev S1x1x512 : Shape := ⟨3, ![1, 1, 512]⟩
abbrev S8x1024x512 : Shape := ⟨3, ![8, 1024, 512]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x1024x768, .f32⟩
  | .hbm, ⟨2, _⟩ => ⟨S512x512, .f32⟩
  | .hbm, ⟨3, _⟩ => ⟨S512, .f32⟩
  | .hbm, ⟨4, _⟩ => ⟨S768x512, .f32⟩
  | .hbm, ⟨5, _⟩ => ⟨S512, .f32⟩
  | .hbm, ⟨6, _⟩ => ⟨S768x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S8x4096x512, .f32⟩
  | .hbm, ⟨11, _⟩ => ⟨S1x1x512, .f32⟩
  | .hbm, ⟨12, _⟩ => ⟨S8x4096x512, .f32⟩
  | .hbm, ⟨13, _⟩ => ⟨S8x4096x512, .f32⟩
  | .hbm, ⟨14, _⟩ => ⟨S8x1024x512, .f32⟩
  | .hbm, ⟨15, _⟩ => ⟨S1x1x512, .f32⟩
  | .hbm, ⟨16, _⟩ => ⟨S8x1024x512, .f32⟩
  | .hbm, ⟨17, _⟩ => ⟨S8x1024x512, .f32⟩
  | .hbm, ⟨18, _⟩ => ⟨S8x1024x512, .f32⟩
  | .hbm, ⟨19, _⟩ => ⟨S1x1x512, .f32⟩
  | .hbm, ⟨20, _⟩ => ⟨S8x1024x512, .f32⟩
  | .hbm, ⟨21, _⟩ => ⟨S8x1024x512, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8x4096, .f32⟩
  | .hbm, ⟨30, _⟩ => ⟨S8x4096, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S8x4096x512, .f32⟩
  | .hbm, ⟨41, _⟩ => ⟨S8x4096x512, .f32⟩
  | .hbm, ⟨42, _⟩ => ⟨S1x1x512, .f32⟩
  | .hbm, ⟨43, _⟩ => ⟨S8x4096x512, .f32⟩
  | .hbm, ⟨44, _⟩ => ⟨S8x4096x512, .f32⟩
  | .hbm, ⟨45, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  bcast_S1x1x512_S8x1024x512_0_1_2 : S1x1x512.BroadcastsInDim S8x1024x512 (![0, 1, 2] : Fin 3 → Fin S8x1024x512.rank)
  bcast_S_S8x4096x1024 : S_.BroadcastsInDim S8x4096x1024 (![] : Fin 0 → Fin S8x4096x1024.rank)
  reducesTo_S8x4096x1024_S8x4096_d2 : S8x4096x1024.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  dot_S8x4096x512_S512x512_S8x4096x512_2_0_01_1_n_n_wf : DotDims.WF S8x4096x512 S512x512 S8x4096x512 [2] [0] [0, 1] [1] [] []
  dot_S8x1024x768_S768x512_S8x1024x512_2_0_01_1_n_n_wf : DotDims.WF S8x1024x768 S768x512 S8x1024x512 [2] [0] [0, 1] [1] [] []
  dot_S8x4096x512_S8x1024x512_S8x4096x1024_2_2_1_1_0_0_wf : DotDims.WF S8x4096x512 S8x1024x512 S8x4096x1024 [2] [2] [1] [1] [0] [0]
  dot_S8x4096x1024_S8x1024x512_S8x4096x512_2_1_1_2_0_0_wf : DotDims.WF S8x4096x1024 S8x1024x512 S8x4096x512 [2] [1] [1] [2] [0] [0]

variable [Facts₀]

def dot_S8x4096x512_S512x512_S8x4096x512_2_0_01_1_n_n : DotDims S8x4096x512 S512x512 S8x4096x512 where
  lhsContracting := [2]
  rhsContracting := [0]
  lhsNonContracting := [0, 1]
  rhsNonContracting := [1]
  lhsBatch := []
  rhsBatch := []
  wf := dot_S8x4096x512_S512x512_S8x4096x512_2_0_01_1_n_n_wf
def dot_S8x1024x768_S768x512_S8x1024x512_2_0_01_1_n_n : DotDims S8x1024x768 S768x512 S8x1024x512 where
  lhsContracting := [2]
  rhsContracting := [0]
  lhsNonContracting := [0, 1]
  rhsNonContracting := [1]
  lhsBatch := []
  rhsBatch := []
  wf := dot_S8x1024x768_S768x512_S8x1024x512_2_0_01_1_n_n_wf
def dot_S8x4096x512_S8x1024x512_S8x4096x1024_2_2_1_1_0_0 : DotDims S8x4096x512 S8x1024x512 S8x4096x1024 where
  lhsContracting := [2]
  rhsContracting := [2]
  lhsNonContracting := [1]
  rhsNonContracting := [1]
  lhsBatch := [0]
  rhsBatch := [0]
  wf := dot_S8x4096x512_S8x1024x512_S8x4096x1024_2_2_1_1_0_0_wf
def dot_S8x4096x1024_S8x1024x512_S8x4096x512_2_1_1_2_0_0 : DotDims S8x4096x1024 S8x1024x512 S8x4096x512 where
  lhsContracting := [2]
  rhsContracting := [1]
  lhsNonContracting := [1]
  rhsNonContracting := [2]
  lhsBatch := [0]
  rhsBatch := [0]
  wf := dot_S8x4096x1024_S8x1024x512_S8x4096x512_2_1_1_2_0_0_wf

class Facts : Prop extends Facts₀ where

variable [Facts]
-- ==== Proof.KernelPieces.lean ====
/-
  What one run of the kernel body leaves in the output block and in the two carried buffers, as values.

  At the first query tile of a batch (case A) the body stores the key rows K = ctx_b · Wk + bk and the value rows
  V = ctx_b · Wv + bv of that batch whole into the two carried buffers, reads them back, and stores the output block
  computed from the query tile, the weights and those K and V. At every other tile (case B) it stores nothing into the
  carried buffers and computes the same output block from what they hold. Each buffer is written by ONE store covering
  it whole, so what it holds afterwards is that store's payload, and every load reads a whole buffer.
-/
import proofs.«160911_j26096221290813_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The output block of a query tile x0 from the query weights and bias (x2, x3), the key and value rows the carried
    buffers hold (kk, vv) and the output weights and bias (x8, x9): the body's arithmetic as one term. -/
def outBlock (x0 : Vec F S1x1024x512 .f32) (x2 : Vec F S512x512 .bf16) (x3 : Vec F S512 .f32)
    (kk vv : Vec F S1024x512 .bf16) (x8 : Vec F S512x512 .bf16) (x9 : Vec F S512 .f32) : Vec F S1x1024x512 .f32 :=
  k0_pay1 (k0_pay5 x0) (k0_pay6 x0 x2 x3 kk vv x8) x9

/-- Case A leaves the key rows of the batch in the first carried buffer. -/
theorem keys_A (c : Dev nD) (i : grid0.Coords) (arg2 : Memref sig .tc .vmem S1x1024x512 .f32) (harg2 : arg2.IsWhole) (arg3 : Memref sig .tc .vmem S1x1024x768 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S768x512 .bf16) (harg6 : arg6.IsWhole) (arg7 : Memref sig .tc .vmem S512 .f32) (harg7 : arg7.IsWhole) (arg8 : Memref sig .tc .vmem S768x512 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1024x512 .bf16) (harg14 : arg14.IsWhole) (hc0 : cond0_0 i) (x0 : Vec F S1x1024x512 .f32) (x1 : Vec F S1x1024x768 .f32) (x2 : Vec F S512x512 .bf16) (x3 : Vec F S512 .f32) (x4 : Vec F S768x512 .bf16) (x5 : Vec F S512 .f32) (x6 : Vec F S768x512 .bf16) (x7 : Vec F S512 .f32) (x8 : Vec F S512x512 .bf16) (x9 : Vec F S512 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay3 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  simp only [View.readAt_eq_ld, harg3.read_unread, harg6.read_unread, harg7.read_unread,
    View.ld_unit_zero (S := S1x1024x768) hz3, View.ld_unit_zero (S := S768x512) hz2, View.ld_unit_zero (S := S512) hz1]

/-- Case A leaves the value rows of the batch in the second carried buffer. -/
theorem values_A (c : Dev nD) (i : grid0.Coords) (arg2 : Memref sig .tc .vmem S1x1024x512 .f32) (harg2 : arg2.IsWhole) (arg3 : Memref sig .tc .vmem S1x1024x768 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S768x512 .bf16) (harg6 : arg6.IsWhole) (arg7 : Memref sig .tc .vmem S512 .f32) (harg7 : arg7.IsWhole) (arg8 : Memref sig .tc .vmem S768x512 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1024x512 .bf16) (harg14 : arg14.IsWhole) (hc0 : cond0_0 i) (x0 : Vec F S1x1024x512 .f32) (x1 : Vec F S1x1024x768 .f32) (x2 : Vec F S512x512 .bf16) (x3 : Vec F S512 .f32) (x4 : Vec F S768x512 .bf16) (x5 : Vec F S512 .f32) (x6 : Vec F S768x512 .bf16) (x7 : Vec F S512 .f32) (x8 : Vec F S512x512 .bf16) (x9 : Vec F S512 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay4 x1 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  simp only [View.readAt_eq_ld, harg3.read_unread, harg8.read_unread, harg9.read_unread,
    View.ld_unit_zero (S := S1x1024x768) hz3, View.ld_unit_zero (S := S768x512) hz2, View.ld_unit_zero (S := S512) hz1]

/-- Case A's output block: computed from the key and value rows it has just stored and read back. -/
theorem out_A (c : Dev nD) (i : grid0.Coords) (arg2 : Memref sig .tc .vmem S1x1024x512 .f32) (harg2 : arg2.IsWhole) (arg3 : Memref sig .tc .vmem S1x1024x768 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S768x512 .bf16) (harg6 : arg6.IsWhole) (arg7 : Memref sig .tc .vmem S512 .f32) (harg7 : arg7.IsWhole) (arg8 : Memref sig .tc .vmem S768x512 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1024x512 .bf16) (harg14 : arg14.IsWhole) (hc0 : cond0_0 i) (x0 : Vec F S1x1024x512 .f32) (x1 : Vec F S1x1024x768 .f32) (x2 : Vec F S512x512 .bf16) (x3 : Vec F S512 .f32) (x4 : Vec F S768x512 .bf16) (x5 : Vec F S512 .f32) (x6 : Vec F S768x512 .bf16) (x7 : Vec F S512 .f32) (x8 : Vec F S512x512 .bf16) (x9 : Vec F S512 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = outBlock x0 x2 x3 (k0_pay3 x1 x4 x5) (k0_pay4 x1 x6 x7) x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero (S := S1x1024x512) hz3]
  rw [View.readCov_unit_zero (S := S1024x512) _ hz2, View.readCov_unit_zero (S := S1024x512) _ hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1x1024x512) hz3, View.ld_unit_zero (S := S1x1024x768) hz3,
    View.ld_unit_zero (S := S768x512) hz2, View.ld_unit_zero (S := S512x512) hz2, View.ld_unit_zero (S := S512) hz1]
  rfl

/-- Case B's output block: computed from what the carried buffers hold. -/
theorem out_B (c : Dev nD) (i : grid0.Coords) (arg2 : Memref sig .tc .vmem S1x1024x512 .f32) (harg2 : arg2.IsWhole) (arg3 : Memref sig .tc .vmem S1x1024x768 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S768x512 .bf16) (harg6 : arg6.IsWhole) (arg7 : Memref sig .tc .vmem S512 .f32) (harg7 : arg7.IsWhole) (arg8 : Memref sig .tc .vmem S768x512 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1024x512 .bf16) (harg14 : arg14.IsWhole) (hc0 : ¬cond0_0 i) (x0 : Vec F S1x1024x512 .f32) (x1 : Vec F S1x1024x768 .f32) (x2 : Vec F S512x512 .bf16) (x3 : Vec F S512 .f32) (x4 : Vec F S768x512 .bf16) (x5 : Vec F S512 .f32) (x6 : Vec F S768x512 .bf16) (x7 : Vec F S512 .f32) (x8 : Vec F S512x512 .bf16) (x9 : Vec F S512 .f32)
    (xs0 xs1 : Vec F S1024x512 .bf16) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 = outBlock x0 x2 x3 xs0 xs1 x8 x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  rw [View.canon_unit_zero (S := S1x1024x512) hz3]
  simp only [View.readAt_eq_ld, harg2.read_unread, harg4.read_unread, harg5.read_unread, harg10.read_unread,
    harg11.read_unread, harg13.read_unread, harg14.read_unread,
    View.ld_unit_zero (S := S1x1024x512) hz3, View.ld_unit_zero (S := S1024x512) hz2,
    View.ld_unit_zero (S := S512x512) hz2, View.ld_unit_zero (S := S512) hz1]
  rfl

end Cert.KernelIdeal.Pieces

end
-- ==== Proof.Spec.lean ====
/-
  Cross attention with a residual connection, as one function of the argument arrays, on the extended reals.

  For a batch b, a query position n and an output feature d the result is
      out[b, n, d] = (Σ_e o[b, n, e] · Wo[e, d] + bo[d]) + x[b, n, d],
  where  o[b, n, e] = Σ_j w[b, n, j] · v[b, j, e]  mixes the value rows  v[b, j, ·] = ctx[b, j, ·] · Wv + bv  with the
  softmax weights  w[b, n, j] = exp (s[b, n, j] − max_j' s[b, n, j']) / Σ_j' exp (s[b, n, j'] − max_j'' s[b, n, j''])  of the
  scores  s[b, n, j] = (Σ_e q[b, n, e] · k[b, j, e]) · c  between the query row  q[b, n, ·] = x[b, n, ·] · Wq + bq  and the key
  rows  k[b, j, ·] = ctx[b, j, ·] · Wk + bk.  The maximum is the fold of max from a lower bound `lo` (the programs pass −∞).

  The scale c may equally be applied to the query row before the inner product: for 0 ≤ c < ⊤ multiplication by c
  distributes over every sum of extended reals (infinite terms included), so Σ_e (q_e · c) · k_e = (Σ_e q_e · k_e) · c.
-/
import Idealize.ShloMosaic.PureOps.Ideal
import Idealize.ShloMosaic.Lib.ValueIdx

noncomputable section

namespace CrossAttention

open Idealize.ShloMosaic Idealize.ShloMosaic.ValueIdx

/-- A row times a matrix plus a bias row, at column e: Σ_k x k · W k e + b e. -/
def affine {K N : ℕ} (x : Fin K → EReal) (W : Fin K → Fin N → EReal) (b : Fin N → EReal) (e : Fin N) : EReal :=
  (∑ k : Fin K, x k * W k e) + b e

/-- The score of a query row against key row j, the scale applied to the finished inner product. -/
def score {E M : ℕ} (c : EReal) (q : Fin E → EReal) (k : Fin M → Fin E → EReal) (j : Fin M) : EReal :=
  (∑ e : Fin E, q e * k j e) * c

/-- The same score with the scale applied to the query row first. -/
def scoreScaledQuery {E M : ℕ} (c : EReal) (q : Fin E → EReal) (k : Fin M → Fin E → EReal) (j : Fin M) : EReal :=
  ∑ e : Fin E, (q e * c) * k j e

/-- A nonnegative finite factor leaves a sum of extended reals term by term. -/
theorem sum_mul_of_nonneg_of_ne_top {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- So scaling the query row first gives the same score. -/
theorem scoreScaledQuery_eq_score {E M : ℕ} {c : EReal} (h0 : 0 ≤ c) (ht : c ≠ ⊤) (q : Fin E → EReal)
    (k : Fin M → Fin E → EReal) : scoreScaledQuery c q k = score c q k := by
  funext j
  unfold scoreScaledQuery score
  rw [← sum_mul_of_nonneg_of_ne_top _ _ h0 ht]
  exact Finset.sum_congr rfl fun e _ => mul_right_comm _ _ _

/-- The largest score of a row: the fold of max from the lower bound `lo`. -/
def rowMax {M : ℕ} (lo : EReal) (s : Fin M → EReal) : EReal := (Finset.univ : Finset (Fin M)).fold max lo s

/-- The fold starts at `lo`, so it is at least `lo`. -/
theorem max_rowMax {M : ℕ} (lo : EReal) (s : Fin M → EReal) : max lo (rowMax lo s) = rowMax lo s :=
  max_eq_right ((Finset.le_fold_max lo).mpr (Or.inl le_rfl))

/-- The softmax weight of position j in a row of scores. -/
def weights {M : ℕ} (lo : EReal) (s : Fin M → EReal) (j : Fin M) : EReal :=
  Ideal.div (Ideal.exp (s j - rowMax lo s)) (∑ j' : Fin M, Ideal.exp (s j' - rowMax lo s))

/-- The weighted mix of the value rows, at feature e. -/
def mix {M E : ℕ} (w : Fin M → EReal) (v : Fin M → Fin E → EReal) (e : Fin E) : EReal := ∑ j : Fin M, w j * v j e

/-- The attended row of one query row: from the query row q, the key rows k and the value rows v. -/
def attend {E M : ℕ} (c lo : EReal) (q : Fin E → EReal) (k v : Fin M → Fin E → EReal) : Fin E → EReal :=
  mix (weights lo (score c q k)) v

/-- The same with the scale applied to the query row first. -/
def attendScaledQuery {E M : ℕ} (c lo : EReal) (q : Fin E → EReal) (k v : Fin M → Fin E → EReal) : Fin E → EReal :=
  mix (weights lo (scoreScaledQuery c q k)) v

theorem attendScaledQuery_eq_attend {E M : ℕ} {c : EReal} (h0 : 0 ≤ c) (ht : c ≠ ⊤) (lo : EReal) (q : Fin E → EReal)
    (k v : Fin M → Fin E → EReal) : attendScaledQuery c lo q k v = attend c lo q k v := by
  unfold attendScaledQuery attend
  rw [scoreScaledQuery_eq_score h0 ht]

/-! ## The result over the argument arrays -/

abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-- Row (b, n) of a three-axis array, a matrix and a vector as functions of coordinates. -/
abbrev row3 {a b c : ℕ} (x : Arr3 a b c) (p : Fin a) (q : Fin b) : Fin c → EReal := fun d => x (ix3 p q d)
abbrev mat2 {a b : ℕ} (W : Arr2 a b) : Fin a → Fin b → EReal := fun k e => W (ix2 k e)
abbrev vec1 {a : ℕ} (v : Arr1 a) : Fin a → EReal := fun e => v (ix1 e)

/-- The projected rows of batch b: row j is (row j of batch b of `ctx`) · W + bias. -/
def projRows (ctx : Arr3 8 1024 768) (W : Arr2 768 512) (bias : Arr1 512) (b : Fin 8) : Fin 1024 → Fin 512 → EReal :=
  fun j => affine (row3 ctx b j) (mat2 W) (vec1 bias)

/-- The query row of position (b, n). -/
def queryRow (x : Arr3 8 4096 512) (Wq : Arr2 512 512) (bq : Arr1 512) (b : Fin 8) (n : Fin 4096) : Fin 512 → EReal :=
  affine (row3 x b n) (mat2 Wq) (vec1 bq)

/-- THE RESULT at (b, n, d). -/
def outAt (c lo : EReal) (x : Arr3 8 4096 512) (ctx : Arr3 8 1024 768) (Wq : Arr2 512 512) (bq : Arr1 512)
    (Wk : Arr2 768 512) (bk : Arr1 512) (Wv : Arr2 768 512) (bv : Arr1 512) (Wo : Arr2 512 512) (bo : Arr1 512)
    (b : Fin 8) (n : Fin 4096) (d : Fin 512) : EReal :=
  affine (attend c lo (queryRow x Wq bq b n) (projRows ctx Wk bk b) (projRows ctx Wv bv b)) (mat2 Wo) (vec1 bo) d
    + x (ix3 b n d)

/-- THE RESULT as an array. -/
def out (c lo : EReal) (x : Arr3 8 4096 512) (ctx : Arr3 8 1024 768) (Wq : Arr2 512 512) (bq : Arr1 512)
    (Wk : Arr2 768 512) (bk : Arr1 512) (Wv : Arr2 768 512) (bv : Arr1 512) (Wo : Arr2 512 512) (bo : Arr1 512) :
    Arr3 8 4096 512 :=
  fun i => outAt c lo x ctx Wq bq Wk bk Wv bv Wo bo (i 0) (i 1) (i 2)

theorem out_ix3 (c lo : EReal) (x : Arr3 8 4096 512) (ctx : Arr3 8 1024 768) (Wq : Arr2 512 512) (bq : Arr1 512)
    (Wk : Arr2 768 512) (bk : Arr1 512) (Wv : Arr2 768 512) (bv : Arr1 512) (Wo : Arr2 512 512) (bo : Arr1 512)
    (b : Fin 8) (n : Fin 4096) (d : Fin 512) :
    out c lo x ctx Wq bq Wk bk Wv bv Wo bo (ix3 b n d) = outAt c lo x ctx Wq bq Wk bk Wv bv Wo bo b n d := rfl

/-! ## The two literals -/

/-- The scale both programs multiply by: the f32 nearest 1/√512. -/
abbrev scaleWord : EReal := Ideal.ofBits .f32 0x3D3504F3#32
/-- The value both programs start a row's maximum from: the f32 pattern of −∞. -/
abbrev negInfWord : EReal := Ideal.ofBits .f32 0xFF800000#32

/-- The scale the programs multiply by, the f32 nearest 1/√512, is a nonnegative real. -/
theorem scale_nonneg_real : ∃ r : ℝ, 0 ≤ r ∧ Ideal.ofBits .f32 0x3D3504F3#32 = (r : EReal) := by
  refine ⟨_, ?_, by simp [Ideal.ofBits, Ideal.ieee]; rfl⟩
  positivity

theorem scale_nonneg : (0 : EReal) ≤ Ideal.ofBits .f32 0x3D3504F3#32 := by
  obtain ⟨r, h0, hr⟩ := scale_nonneg_real
  rw [hr]; exact EReal.coe_nonneg.mpr h0

theorem scale_ne_top : Ideal.ofBits .f32 0x3D3504F3#32 ≠ ⊤ := by
  obtain ⟨r, _, hr⟩ := scale_nonneg_real
  rw [hr]; exact EReal.coe_ne_top r

end CrossAttention

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.KernelPayloads.lean ====
/-
  The kernel body's arithmetic, read entry by entry on the extended reals.

  The body works on one batch's context block [1, 1024, 768] and one query tile [1, 1024, 512]. Entry (j, e) of the key
  (value) rows it stores is  Σ_c ctx(0, j, c) · W(c, e) + bias(e).  Entry (r, d) of the product it passes to the last
  bias-and-residual step is  Σ_e a_r(e) · Wo(e, d),  where a_r is the attended row of query row r: the softmax weights of
  the scores (Σ_e (q_r(e) · c) · K(j, e))_j — the scale c applied to the query row q_r = x(0, r, ·) · Wq + bq first, K
  entering transposed — mixing the value rows. The stored output entry (0, r, d) adds bo(d) and the residual x(0, r, d).
  A change of float format is the identity on exact values; a lane reduction over a row is that row's sum or maximum.
-/
import proofs.«160911_j26096221290813_2_alg».proof.Proof.Gen.KernelIdeal.Skeleton
import proofs.«160911_j26096221290813_2_alg».proof.Proof.Spec
import proofs.«160911_j26096221290813_2_alg».proof.Proof.LibPlainMatmul
import proofs.«160911_j26096221290813_2_alg».proof.Proof.LibMergedAxes
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen CrossAttention

macro "coords2" : tactic => `(tactic| (funext a; match a with | ⟨0, _⟩ => rfl | ⟨1, _⟩ => rfl))

/-! ## The four matrix products, each into a zero accumulator -/

theorem matmul_ctx (A : FVec Ideal S1024x768 .bf16) (B : FVec Ideal S768x512 .bf16) (j : Fin 1024) (e : Fin 512) :
    matmul dot_S1024x768_S768x512_S1024x512_1_0_0_1_n_n none A B (constant S1024x512 .f32 0x00000000#32) (ix2 j e)
      = ∑ k : Fin 768, A (ix2 j k) * B (ix2 k e) :=
  PlainMatmul.apply_zero A B j e

theorem matmul_feat (A : FVec Ideal S1024x512 .bf16) (B : FVec Ideal S512x512 .bf16) (r : Fin 1024) (e : Fin 512) :
    matmul dot_S1024x512_S512x512_S1024x512_1_0_0_1_n_n none A B (constant S1024x512 .f32 0x00000000#32) (ix2 r e)
      = ∑ k : Fin 512, A (ix2 r k) * B (ix2 k e) :=
  PlainMatmul.apply_zero A B r e

theorem matmul_scores (A : FVec Ideal S1024x512 .bf16) (B : FVec Ideal S512x1024 .bf16) (r j : Fin 1024) :
    matmul dot_S1024x512_S512x1024_S1024x1024_1_0_0_1_n_n none A B (constant S1024x1024 .f32 0x00000000#32) (ix2 r j)
      = ∑ k : Fin 512, A (ix2 r k) * B (ix2 k j) :=
  PlainMatmul.apply_zero A B r j

theorem matmul_mix (A : FVec Ideal S1024x1024 .bf16) (B : FVec Ideal S1024x512 .bf16) (r : Fin 1024) (e : Fin 512) :
    matmul dot_S1024x1024_S1024x512_S1024x512_1_0_0_1_n_n none A B (constant S1024x512 .f32 0x00000000#32) (ix2 r e)
      = ∑ k : Fin 1024, A (ix2 r k) * B (ix2 k e) :=
  PlainMatmul.apply_zero A B r e

/-! ## The two lane reductions and the pointwise exponential -/

/-- The sum over a row. -/
theorem laneSum_apply (src : FVec Ideal S1024x1024 .f32) (hφ : FKind.Formats .f32)
    (hacc : (0x00000000#32 : BitVec 32) = 0x00000000#32) (r : Fin 1024) :
    multiReduction .add [1] S1024 src 0x00000000#32 reduces_S1024x1024_S1024 hφ hacc (ix1 r)
      = ∑ k : Fin 1024, src (ix2 r k) := by
  refine (Ideal.multiReduction_add_single src 0x00000000#32 reduces_S1024x1024_S1024 hφ hacc (ix1 r)).trans ?_
  refine Finset.sum_congr rfl fun k _ => congrArg src ?_
  coords2

/-- The maximum over a row, from the −∞ word. -/
theorem laneMax_apply (src : FVec Ideal S1024x1024 .f32) (hφ : FKind.Formats .f32)
    (hacc : (0xFF800000#32 : BitVec 32) = 0xFF800000#32) (r : Fin 1024) :
    multiReduction .maximumf [1] S1024 src 0xFF800000#32 reduces_S1024x1024_S1024 hφ hacc (ix1 r)
      = rowMax negInfWord (fun k => src (ix2 r k)) := by
  refine (Ideal.multiReduction_maximumf_single src 0xFF800000#32 reduces_S1024x1024_S1024 hφ hacc (ix1 r)).trans ?_
  unfold rowMax
  refine congrArg (fun f => (Finset.univ : Finset (Fin 1024)).fold max negInfWord f) ?_
  funext k
  refine congrArg src ?_
  coords2

/-- A [1024, 512] matrix with its axes exchanged. -/
def transposed (v : Vec Ideal S1024x512 .bf16) : Vec Ideal S512x1024 .bf16 := fun i => v (ix2 (i 1) (i 0))

theorem transposed_apply (v : Vec Ideal S1024x512 .bf16) (e : Fin 512) (j : Fin 1024) :
    transposed v (ix2 e j) = v (ix2 j e) := rfl

/-- The key rows enter the score product transposed. -/
theorem keysT_eq (v16 : Vec Ideal S1024x512 .bf16) :
    transpose S512x1024 [1, 0] v16 transposes_S1024x512_p1_0_S512x1024 = transposed v16 := by
  funext i
  obtain ⟨e, j, rfl⟩ : ∃ (e : Fin 512) (j : Fin 1024), i = ix2 e j := ⟨i 0, i 1, eq_ix2 i⟩
  exact transpose_ix2_apply v16 transposes_S1024x512_p1_0_S512x1024 e j

theorem exp_apply {s : Shape} {φ : FTy} (a : FVec Ideal s φ) (i : s.Idx) : exp a i = Ideal.exp (a i) := rfl

/-! ## The payloads -/

/-- The key rows of a context block (the payload stored into the first carried buffer). -/
theorem keys_apply (v43 : Vec Ideal S1x1024x768 .f32) (v46 : Vec Ideal S768x512 .bf16) (v49 : Vec Ideal S512 .f32)
    (j : Fin 1024) (e : Fin 512) :
    k0_pay3 (F := Ideal) v43 v46 v49 (ix2 j e)
      = affine (fun c => v43 (ix3 (0 : Fin 1) j c)) (fun c e => v46 (ix2 c e)) (fun e => v49 (ix1 e)) e := by
  unfold k0_pay3 k0_pay2
  dsimp only
  rw [shapeCast_self]
  simp only [truncf_apply, addf_apply, matmul_ctx, broadcastTo_1b_ab_apply, shapeCast_a_1a_apply, shapeCast_self,
    shapeCast_1ab_ab_apply]
  rfl

/-- The value rows of a context block (the payload stored into the second carried buffer). -/
theorem values_apply (v43 : Vec Ideal S1x1024x768 .f32) (v53 : Vec Ideal S768x512 .bf16) (v56 : Vec Ideal S512 .f32)
    (j : Fin 1024) (e : Fin 512) :
    k0_pay4 (F := Ideal) v43 v53 v56 (ix2 j e)
      = affine (fun c => v43 (ix3 (0 : Fin 1) j c)) (fun c e => v53 (ix2 c e)) (fun e => v56 (ix1 e)) e := by
  unfold k0_pay4 k0_pay2
  dsimp only
  rw [shapeCast_self]
  simp only [truncf_apply, addf_apply, matmul_ctx, broadcastTo_1b_ab_apply, shapeCast_a_1a_apply, shapeCast_self,
    shapeCast_1ab_ab_apply]
  rfl

/-- The attended rows of a query tile through the output weights. -/
theorem attended_apply (v3 : Vec Ideal S1x1024x512 .f32) (v6 : Vec Ideal S512x512 .bf16) (v9 : Vec Ideal S512 .f32)
    (v16 v29 : Vec Ideal S1024x512 .bf16) (v32 : Vec Ideal S512x512 .bf16) (r : Fin 1024) (d : Fin 512) :
    k0_pay6 (F := Ideal) v3 v6 v9 v16 v29 v32 (ix2 r d)
      = ∑ e : Fin 512, attendScaledQuery scaleWord negInfWord
            (affine (fun k => v3 (ix3 (0 : Fin 1) r k)) (fun k e => v6 (ix2 k e)) (fun e => v9 (ix1 e)))
            (fun j e => v16 (ix2 j e)) (fun j e => v29 (ix2 j e)) e * v32 (ix2 e d) := by
  unfold k0_pay6 k0_pay5
  dsimp only
  rw [keysT_eq]
  simp only [matmul_feat, matmul_scores, matmul_mix, truncf_apply, addf_apply, mulf_apply, subf_apply, divf_apply,
    exp_apply, broadcast_apply, broadcastTo_1b_ab_apply, shapeCast_a_1a_apply, shapeCast_self, shapeCast_1ab_ab_apply,
    transposed_apply, Cert.LibMergedAxes.broadcastTo_a1_ab_apply, Cert.LibMergedAxes.shapeCast_a_a1_apply]
  rw [laneMax_apply]
  simp only [matmul_feat, matmul_scores, truncf_apply, addf_apply, mulf_apply, broadcast_apply, broadcastTo_1b_ab_apply,
    shapeCast_a_1a_apply, shapeCast_self, shapeCast_1ab_ab_apply, transposed_apply]
  rw [laneSum_apply]
  simp only [matmul_feat, matmul_scores, truncf_apply, addf_apply, mulf_apply, subf_apply, exp_apply, broadcast_apply,
    broadcastTo_1b_ab_apply, shapeCast_a_1a_apply, shapeCast_self, shapeCast_1ab_ab_apply, transposed_apply,
    Cert.LibMergedAxes.broadcastTo_a1_ab_apply, Cert.LibMergedAxes.shapeCast_a_a1_apply]
  rw [laneMax_apply]
  simp only [matmul_feat, matmul_scores, truncf_apply, addf_apply, mulf_apply, broadcast_apply, broadcastTo_1b_ab_apply,
    shapeCast_a_1a_apply, shapeCast_self, shapeCast_1ab_ab_apply, transposed_apply]
  rfl

/-- The stored output entry: the attended row through the output weights, plus the output bias, plus the residual. -/
theorem block_apply (v3 : Vec Ideal S1x1024x512 .f32) (v6 : Vec Ideal S512x512 .bf16) (v9 : Vec Ideal S512 .f32)
    (v16 v29 : Vec Ideal S1024x512 .bf16) (v32 : Vec Ideal S512x512 .bf16) (v35 : Vec Ideal S512 .f32)
    (u : Fin 1) (r : Fin 1024) (d : Fin 512) :
    k0_pay1 (F := Ideal) (k0_pay5 v3) (k0_pay6 v3 v6 v9 v16 v29 v32) v35 (ix3 u r d)
      = affine (attendScaledQuery scaleWord negInfWord
            (affine (fun k => v3 (ix3 (0 : Fin 1) r k)) (fun k e => v6 (ix2 k e)) (fun e => v9 (ix1 e)))
            (fun j e => v16 (ix2 j e)) (fun j e => v29 (ix2 j e))) (fun e d => v32 (ix2 e d)) (fun d => v35 (ix1 d)) d
          + v3 (ix3 (0 : Fin 1) r d) := by
  unfold k0_pay1
  rw [shapeCast_ab_1ab_apply]
  simp only [addf_apply, broadcastTo_1b_ab_apply, shapeCast_a_1a_apply, attended_apply]
  unfold k0_pay5
  rw [shapeCast_1ab_ab_apply]
  rfl

end Cert.KernelIdeal.Payloads

end
-- ==== Proof.KernelBlocks.lean ====
/-
  What the kernel's windows read, by coordinates.

  Grid point t = 4·b + n works on batch b = t / 4 and query tile n = t % 4. The query window's block at t is rows
  1024·n … 1024·n + 1023 of batch b of x; the context window's block is batch b of the context, whole; the weight and bias
  windows' blocks are their arrays, whole, at every point; the output window's block at t sits where the query block
  does. The four weight arrays reach the region through a change of float format, the identity on exact values.
-/
import proofs.«160911_j26096221290813_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ) (c : Dev nD)

/-- Where each window's block sits at point t: the printed index maps, decided over the 32 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 3) = t.val / 4 ∧ win0_10.index t (1 : Fin 3) = t.val % 4 ∧ win0_10.index t (2 : Fin 3) = 0 :=
  (by decide +kernel : ∀ t : Fin grid0.N, _)

/-! ## The weight arrays as the region finds them -/

theorem V_wq : (V m c main_v0 : S512x512.Idx → EReal) = m ((c : Thread nD τ).loc main_arg2) := by
  dsimp only [Gen.V, Gen.hostOps0]; after_results; rfl
theorem V_wk : (V m c main_v1 : S768x512.Idx → EReal) = m ((c : Thread nD τ).loc main_arg4) := by
  dsimp only [Gen.V, Gen.hostOps0]; after_results; rfl
theorem V_wv : (V m c main_v2 : S768x512.Idx → EReal) = m ((c : Thread nD τ).loc main_arg6) := by
  dsimp only [Gen.V, Gen.hostOps0]; after_results; rfl
theorem V_wo : (V m c main_v3 : S512x512.Idx → EReal) = m ((c : Thread nD τ).loc main_arg8) := by
  dsimp only [Gen.V, Gen.hostOps0]; after_results; rfl

/-! ## The blocks -/

/-- The query block at t: rows 1024·(t % 4) + r of batch t / 4 of x. -/
theorem x_block (t : Fin cfg0.N) (r : Fin 1024) (d : Fin 512) (b : Fin 8) (n : Fin 4096)
    (hb : b.val = t.val / 4) (hn : n.val = 1024 * (t.val % 4) + r.val) :
    (iblk m c 0 t : Vec Ideal S1x1024x512 .f32) (ix3 (0 : Fin 1) r d)
      = m ((c : Thread nD τ).loc main_arg0) (ix3 b n d) := by
  unfold iblk
  rw [View.read_apply]
  show V m c main_arg0 _ = m (c.tc.loc main_arg0) _
  rw [V_main_arg0]
  refine congrArg _ ?_
  obtain ⟨e0, e1, e2, -⟩ := idx_facts t
  funext a; apply Fin.ext
  match a with
  | ⟨0, _⟩ => show win0_0.index t (0 : Fin 3) * 1 + 1 * 0 = b.val; omega
  | ⟨1, _⟩ => show win0_0.index t (1 : Fin 3) * 1024 + 1 * r.val = n.val; omega
  | ⟨2, _⟩ => show win0_0.index t (2 : Fin 3) * 512 + 1 * d.val = d.val; omega

/-- The context block at t: batch t / 4 of the context, whole. -/
theorem ctx_block (t : Fin cfg0.N) (j : Fin 1024) (k : Fin 768) (b : Fin 8) (hb : b.val = t.val / 4) :
    (iblk m c 1 t : Vec Ideal S1x1024x768 .f32) (ix3 (0 : Fin 1) j k)
      = m ((c : Thread nD τ).loc main_arg1) (ix3 b j k) := by
  unfold iblk
  rw [View.read_apply]
  show V m c main_arg1 _ = m (c.tc.loc main_arg1) _
  rw [V_main_arg1]
  refine congrArg _ ?_
  have e := idx_facts t
  funext a; apply Fin.ext
  match a with
  | ⟨0, _⟩ => show win0_1.index t (0 : Fin 3) * 1 + 1 * 0 = b.val; omega
  | ⟨1, _⟩ => show win0_1.index t (1 : Fin 3) * 1024 + 1 * j.val = j.val; omega
  | ⟨2, _⟩ => show win0_1.index t (2 : Fin 3) * 768 + 1 * k.val = k.val; omega

/-- The query weights' block: the array, at every point. -/
theorem wq_block (t : Fin cfg0.N) :
    (iblk m c 2 t : Vec Ideal S512x512 .bf16) = (m ((c : Thread nD τ).loc main_arg2) : S512x512.Idx → EReal) := by
  funext y
  unfold iblk
  rw [View.read_apply]
  show V m c main_v0 _ = _
  rw [V_wq]
  refine congrArg _ ?_
  have e := idx_facts t
  funext a; apply Fin.ext
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The query bias' block: the array, at every point. -/
theorem bq_block (t : Fin cfg0.N) :
    (iblk m c 3 t : Vec Ideal S512 .f32) = (m ((c : Thread nD τ).loc main_arg3) : S512.Idx → EReal) := by
  funext y
  unfold iblk
  rw [View.read_apply]
  show V m c main_arg3 _ = _
  rw [V_main_arg3]
  refine congrArg _ ?_
  have e := idx_facts t
  funext a; apply Fin.ext
  match a with
  | ⟨0, _⟩ => show win0_3.index t (0 : Fin 1) * 512 + 1 * (y 0).val = (y 0).val; omega

/-- The key weights' block: the array, at every point. -/
theorem wk_block (t : Fin cfg0.N) :
    (iblk m c 4 t : Vec Ideal S768x512 .bf16) = (m ((c : Thread nD τ).loc main_arg4) : S768x512.Idx → EReal) := by
  funext y
  unfold iblk
  rw [View.read_apply]
  show V m c main_v1 _ = _
  rw [V_wk]
  refine congrArg _ ?_
  have e := idx_facts t
  funext a; apply Fin.ext
  match a with
  | ⟨0, _⟩ => show win0_4.index t (0 : Fin 2) * 768 + 1 * (y 0).val = (y 0).val; omega
  | ⟨1, _⟩ => show win0_4.index t (1 : Fin 2) * 512 + 1 * (y 1).val = (y 1).val; omega

/-- The key bias' block: the array, at every point. -/
theorem bk_block (t : Fin cfg0.N) :
    (iblk m c 5 t : Vec Ideal S512 .f32) = (m ((c : Thread nD τ).loc main_arg5) : S512.Idx → EReal) := by
  funext y
  unfold iblk
  rw [View.read_apply]
  show V m c main_arg5 _ = _
  rw [V_main_arg5]
  refine congrArg _ ?_
  have e := idx_facts t
  funext a; apply Fin.ext
  match a with
  | ⟨0, _⟩ => show win0_5.index t (0 : Fin 1) * 512 + 1 * (y 0).val = (y 0).val; omega

/-- The value weights' block: the array, at every point. -/
theorem wv_block (t : Fin cfg0.N) :
    (iblk m c 6 t : Vec Ideal S768x512 .bf16) = (m ((c : Thread nD τ).loc main_arg6) : S768x512.Idx → EReal) := by
  funext y
  unfold iblk
  rw [View.read_apply]
  show V m c main_v2 _ = _
  rw [V_wv]
  refine congrArg _ ?_
  have e := idx_facts t
  funext a; apply Fin.ext
  match a with
  | ⟨0, _⟩ => show win0_6.index t (0 : Fin 2) * 768 + 1 * (y 0).val = (y 0).val; omega
  | ⟨1, _⟩ => show win0_6.index t (1 : Fin 2) * 512 + 1 * (y 1).val = (y 1).val; omega

/-- The value bias' block: the array, at every point. -/
theorem bv_block (t : Fin cfg0.N) :
    (iblk m c 7 t : Vec Ideal S512 .f32) = (m ((c : Thread nD τ).loc main_arg7) : S512.Idx → EReal) := by
  funext y
  unfold iblk
  rw [View.read_apply]
  show V m c main_arg7 _ = _
  rw [V_main_arg7]
  refine congrArg _ ?_
  have e := idx_facts t
  funext a; apply Fin.ext
  match a with
  | ⟨0, _⟩ => show win0_7.index t (0 : Fin 1) * 512 + 1 * (y 0).val = (y 0).val; omega

/-- The output weights' block: the array, at every point. -/
theorem wo_block (t : Fin cfg0.N) :
    (iblk m c 8 t : Vec Ideal S512x512 .bf16) = (m ((c : Thread nD τ).loc main_arg8) : S512x512.Idx → EReal) := by
  funext y
  unfold iblk
  rw [View.read_apply]
  show V m c main_v3 _ = _
  rw [V_wo]
  refine congrArg _ ?_
  have e := idx_facts t
  funext a; apply Fin.ext
  match a with
  | ⟨0, _⟩ => show win0_8.index t (0 : Fin 2) * 512 + 1 * (y 0).val = (y 0).val; omega
  | ⟨1, _⟩ => show win0_8.index t (1 : Fin 2) * 512 + 1 * (y 1).val = (y 1).val; omega

/-- The output bias' block: the array, at every point. -/
theorem bo_block (t : Fin cfg0.N) :
    (iblk m c 9 t : Vec Ideal S512 .f32) = (m ((c : Thread nD τ).loc main_arg9) : S512.Idx → EReal) := by
  funext y
  unfold iblk
  rw [View.read_apply]
  show V m c main_arg9 _ = _
  rw [V_main_arg9]
  refine congrArg _ ?_
  have e := idx_facts t
  funext a; apply Fin.ext
  match a with
  | ⟨0, _⟩ => show win0_9.index t (0 : Fin 1) * 512 + 1 * (y 0).val = (y 0).val; omega

/-- Where entry (0, r, d) of the output block at t sits in the result array: row 1024·(t % 4) + r of batch t / 4. -/
theorem out_emb (t : Fin cfg0.N) (u : Fin 1) (r : Fin 1024) (d : Fin 512) (b : Fin 8) (n : Fin 4096)
    (hb : b.val = t.val / 4) (hn : n.val = 1024 * (t.val % 4) + r.val) :
    ((cfg0.win 10).blk t).view.emb (ix3 u r d) = (ix3 b n d : S8x4096x512.Idx) := by
  have e := idx_facts t
  have hu : u.val = 0 := by omega
  funext a; apply Fin.ext
  match a with
  | ⟨0, _⟩ => show win0_10.index t (0 : Fin 3) * 1 + 1 * u.val = b.val; omega
  | ⟨1, _⟩ => show win0_10.index t (1 : Fin 3) * 1024 + 1 * r.val = n.val; omega
  | ⟨2, _⟩ => show win0_10.index t (2 : Fin 3) * 512 + 1 * d.val = d.val; omega

/-- An entry of the result array is in the output block of point t iff each coordinate is in the block's range. -/
theorem mem_out_block (t : Fin cfg0.N) (i : S8x4096x512.Idx) :
    i ∈ ((cfg0.win 10).blk t).view.set ↔ ∀ a : Fin 3, win0_10.index t a * S1x1024x512.size a ≤ (i a).val
      ∧ (i a).val < win0_10.index t a * S1x1024x512.size a + S1x1024x512.size a := by
  show i ∈ ((View.whole main_v4).slice (win0_10.rect t)).set ↔ _
  rw [View.set_slice_whole, Rect.mem_set_unit]
  exact Iff.rfl

/-- Every entry of the result array lies in the output block of the point of its batch and query tile. -/
theorem covered (i : S8x4096x512.Idx) :
    ∃ t : Fin cfg0.N, (cfg0.win 10).flush t = true ∧ i ∈ ((cfg0.win 10).blk t).view.set := by
  have hN : cfg0.N = 32 := N_0
  have h0 : (i 0).val < 8 := (i 0).isLt
  have h1 : (i 1).val < 4096 := (i 1).isLt
  have h2 : (i 2).val < 512 := (i 2).isLt
  have ht : 4 * (i 0).val + (i 1).val / 1024 < cfg0.N := by omega
  refine ⟨⟨4 * (i 0).val + (i 1).val / 1024, ht⟩, flush0_10 _, ?_⟩
  have e := idx_facts ⟨4 * (i 0).val + (i 1).val / 1024, ht⟩
  dsimp only at e
  rw [mem_out_block]
  intro a
  match a with
  | ⟨0, _⟩ =>
    show win0_10.index ⟨4 * (i 0).val + (i 1).val / 1024, ht⟩ (0 : Fin 3) * 1 ≤ (i 0).val
      ∧ (i 0).val < win0_10.index ⟨4 * (i 0).val + (i 1).val / 1024, ht⟩ (0 : Fin 3) * 1 + 1
    omega
  | ⟨1, _⟩ =>
    show win0_10.index ⟨4 * (i 0).val + (i 1).val / 1024, ht⟩ (1 : Fin 3) * 1024 ≤ (i 1).val
      ∧ (i 1).val < win0_10.index ⟨4 * (i 0).val + (i 1).val / 1024, ht⟩ (1 : Fin 3) * 1024 + 1024
    omega
  | ⟨2, _⟩ =>
    show win0_10.index ⟨4 * (i 0).val + (i 1).val / 1024, ht⟩ (2 : Fin 3) * 512 ≤ (i 2).val
      ∧ (i 2).val < win0_10.index ⟨4 * (i 0).val + (i 1).val / 1024, ht⟩ (2 : Fin 3) * 512 + 512
    omega

end Cert.KernelIdeal.Blocks

end
-- ==== Proof.KernelValue.lean ====
/-
  The kernel's result array is the cross-attention formula's array.

  The two buffers the kernel carries across the query tiles of a batch hold, after every grid point t = 4·b + n, the key
  rows and the value rows of batch b = t / 4: the first tile of a batch (n = 0) stores them from the batch's context block,
  and the other three tiles leave them as they are, and stay in the same batch (induction on t). So the output block a
  point writes back is the formula's block for batch b and rows 1024·n … 1024·n + 1023: the body's arithmetic read entry
  by entry over the blocks the windows read, with the scale moved from the query row to the finished score (a nonnegative
  finite factor leaves a sum of extended reals term by term). The 32 output blocks tile the result array.
-/
import proofs.«160911_j26096221290813_2_alg».proof.Proof.Gen.KernelIdeal.Value
import proofs.«160911_j26096221290813_2_alg».proof.Proof.KernelPieces
import proofs.«160911_j26096221290813_2_alg».proof.Proof.KernelPayloads
import proofs.«160911_j26096221290813_2_alg».proof.Proof.KernelBlocks
import proofs.«160911_j26096221290813_2_alg».proof.Proof.Spec

noncomputable section

open Idealize.ShloMosaic Idealize.ShloMosaic.TcCoe Idealize.SL.Sem Idealize.ShloMosaic.ValueIdx

namespace Cert.KernelIdeal.RunValue

open Cert.KernelIdeal Cert.KernelIdeal.Gen CrossAttention

variable (m : (ℓ : Loc nD τ sig) → Buf (Elt Ideal) ℓ) (ρ : Dev nD → PrngReg) (c : Dev nD)

/-! ## The argument arrays and the formula's arrays -/

abbrev argX : Arr3 8 4096 512 := m ((c : Thread nD τ).loc main_arg0)
abbrev argCtx : Arr3 8 1024 768 := m ((c : Thread nD τ).loc main_arg1)
abbrev argWq : Arr2 512 512 := m ((c : Thread nD τ).loc main_arg2)
abbrev argBq : Arr1 512 := m ((c : Thread nD τ).loc main_arg3)
abbrev argWk : Arr2 768 512 := m ((c : Thread nD τ).loc main_arg4)
abbrev argBk : Arr1 512 := m ((c : Thread nD τ).loc main_arg5)
abbrev argWv : Arr2 768 512 := m ((c : Thread nD τ).loc main_arg6)
abbrev argBv : Arr1 512 := m ((c : Thread nD τ).loc main_arg7)
abbrev argWo : Arr2 512 512 := m ((c : Thread nD τ).loc main_arg8)
abbrev argBo : Arr1 512 := m ((c : Thread nD τ).loc main_arg9)

/-- The result array the formula gives for the launch contents of the arguments. -/
def result : Buf (Elt Ideal) ((c : Thread nD τ).loc main_v4) :=
  out scaleWord negInfWord (argX m c) (argCtx m c) (argWq m c) (argBq m c) (argWk m c) (argBk m c) (argWv m c) (argBv m c) (argWo m c) (argBo m c)

/-- The batch grid point n works on. -/
def batchOf (n : ℕ) (h : n < cfg0.N) : Fin 8 := ⟨n / 4, by have hN : cfg0.N = 32 := N_0; omega⟩

/-- The key rows of batch b, as the contents of the first carried buffer. -/
def keysArr (b : Fin 8) : Vec Ideal S1024x512 .bf16 :=
  fun i => projRows (argCtx m c) (argWk m c) (argBk m c) b (i 0) (i 1)

/-- The value rows of batch b, as the contents of the second carried buffer. -/
def valuesArr (b : Fin 8) : Vec Ideal S1024x512 .bf16 :=
  fun i => projRows (argCtx m c) (argWv m c) (argBv m c) b (i 0) (i 1)

/-! ## What the first tile of a batch stores -/

/-- The key rows computed from the blocks at point t are the key rows of t's batch. -/
theorem keys_point (t : Fin cfg0.N) :
    k0_pay3 (F := Ideal) (iblk m c 1 t) (iblk m c 4 t) (iblk m c 5 t) = keysArr m c (batchOf t.val t.isLt) := by
  funext i
  obtain ⟨j, e, rfl⟩ : ∃ (j : Fin 1024) (e : Fin 512), i = ix2 j e := ⟨i 0, i 1, eq_ix2 i⟩
  refine (Payloads.keys_apply (iblk m c 1 t) (iblk m c 4 t) (iblk m c 5 t) j e).trans ?_
  rw [Blocks.wk_block, Blocks.bk_block]
  have e1 : (fun k => (iblk m c 1 t : Vec Ideal S1x1024x768 .f32) (ix3 (0 : Fin 1) j k))
      = row3 (argCtx m c) (batchOf t.val t.isLt) j :=
    funext fun k => Blocks.ctx_block m c t j k (batchOf t.val t.isLt) rfl
  rw [e1]
  rfl

/-- The value rows computed from the blocks at point t are the value rows of t's batch. -/
theorem values_point (t : Fin cfg0.N) :
    k0_pay4 (F := Ideal) (iblk m c 1 t) (iblk m c 6 t) (iblk m c 7 t) = valuesArr m c (batchOf t.val t.isLt) := by
  funext i
  obtain ⟨j, e, rfl⟩ : ∃ (j : Fin 1024) (e : Fin 512), i = ix2 j e := ⟨i 0, i 1, eq_ix2 i⟩
  refine (Payloads.values_apply (iblk m c 1 t) (iblk m c 6 t) (iblk m c 7 t) j e).trans ?_
  rw [Blocks.wv_block, Blocks.bv_block]
  have e1 : (fun k => (iblk m c 1 t : Vec Ideal S1x1024x768 .f32) (ix3 (0 : Fin 1) j k))
      = row3 (argCtx m c) (batchOf t.val t.isLt) j :=
    funext fun k => Blocks.ctx_block m c t j k (batchOf t.val t.isLt) rfl
  rw [e1]
  rfl

/-! ## The carried buffers after every point -/

/-- The first tile of a batch leaves the key rows computed from its blocks in the first carried buffer, -/
theorem keys_first (t : Fin cfg0.N) (h0 : t.val % 4 = 0) :
    (outsAt0 m c t.val t.isLt).2.1 = k0_pay3 (F := Ideal) (iblk m c 1 t) (iblk m c 4 t) (iblk m c 5 t) := by
  rw [outsAt0_A m c t h0]
  dsimp only
  exact Pieces.keys_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- the value rows in the second, -/
theorem values_first (t : Fin cfg0.N) (h0 : t.val % 4 = 0) :
    (outsAt0 m c t.val t.isLt).2.2 = k0_pay4 (F := Ideal) (iblk m c 1 t) (iblk m c 6 t) (iblk m c 7 t) := by
  rw [outsAt0_A m c t h0]
  dsimp only
  exact Pieces.values_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- and the output block computed from those in the output buffer. -/
theorem block_first (t : Fin cfg0.N) (h0 : t.val % 4 = 0) :
    (outsAt0 m c t.val t.isLt).1
      = Pieces.outBlock (F := Ideal) (iblk m c 0 t) (iblk m c 2 t) (iblk m c 3 t)
          (k0_pay3 (iblk m c 1 t) (iblk m c 4 t) (iblk m c 5 t)) (k0_pay4 (iblk m c 1 t) (iblk m c 6 t) (iblk m c 7 t))
          (iblk m c 8 t) (iblk m c 9 t) := by
  rw [outsAt0_A m c t h0]
  dsimp only
  exact Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- Any other tile leaves the carried buffers as the tile before left them, -/
theorem keys_later (t : Fin cfg0.N) (h0 : ¬t.val % 4 = 0) :
    (outsAt0 m c t.val t.isLt).2.1 = (outsAt0 m c (t.val - 1) (Nat.lt_of_le_of_lt (Nat.sub_le _ _) t.isLt)).2.1 := by
  rw [outsAt0_B m c t h0]
  rfl

theorem values_later (t : Fin cfg0.N) (h0 : ¬t.val % 4 = 0) :
    (outsAt0 m c t.val t.isLt).2.2 = (outsAt0 m c (t.val - 1) (Nat.lt_of_le_of_lt (Nat.sub_le _ _) t.isLt)).2.2 := by
  rw [outsAt0_B m c t h0]
  rfl

/-- and computes its output block from what they hold. -/
theorem block_later (t : Fin cfg0.N) (h0 : ¬t.val % 4 = 0) :
    (outsAt0 m c t.val t.isLt).1
      = Pieces.outBlock (F := Ideal) (iblk m c 0 t) (iblk m c 2 t) (iblk m c 3 t)
          (outsAt0 m c (t.val - 1) (Nat.lt_of_le_of_lt (Nat.sub_le _ _) t.isLt)).2.1
          (outsAt0 m c (t.val - 1) (Nat.lt_of_le_of_lt (Nat.sub_le _ _) t.isLt)).2.2
          (iblk m c 8 t) (iblk m c 9 t) := by
  rw [outsAt0_B m c t h0]
  dsimp only
  exact Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)
    (outsAt0 m c (t.val - 1) (Nat.lt_of_le_of_lt (Nat.sub_le _ _) t.isLt)).2.1
    (outsAt0 m c (t.val - 1) (Nat.lt_of_le_of_lt (Nat.sub_le _ _) t.isLt)).2.2

/-- After grid point n the carried buffers hold the key rows and the value rows of n's batch. -/
theorem carried (n : ℕ) : ∀ h : n < cfg0.N,
    (outsAt0 m c n h).2.1 = keysArr m c (batchOf n h) ∧ (outsAt0 m c n h).2.2 = valuesArr m c (batchOf n h) := by
  induction n with
  | zero =>
    exact fun h => ⟨(keys_first m c ⟨0, h⟩ rfl).trans (keys_point m c ⟨0, h⟩),
      (values_first m c ⟨0, h⟩ rfl).trans (values_point m c ⟨0, h⟩)⟩
  | succ n ih =>
    intro h
    by_cases h0 : (n + 1) % 4 = 0
    · exact ⟨(keys_first m c ⟨n + 1, h⟩ h0).trans (keys_point m c ⟨n + 1, h⟩),
        (values_first m c ⟨n + 1, h⟩ h0).trans (values_point m c ⟨n + 1, h⟩)⟩
    · have hp := ih (Nat.lt_of_succ_lt h)
      have hb : batchOf (n + 1) h = batchOf n (Nat.lt_of_succ_lt h) :=
        Fin.ext (by show (n + 1) / 4 = n / 4; omega)
      rw [hb]
      exact ⟨(keys_later m c ⟨n + 1, h⟩ h0).trans hp.1, (values_later m c ⟨n + 1, h⟩ h0).trans hp.2⟩

/-! ## The output block of every point -/

/-- The output block of point t is computed from the key rows and the value rows of t's batch. -/
theorem block_at (t : Fin cfg0.N) :
    (outsAt0 m c t.val t.isLt).1
      = Pieces.outBlock (F := Ideal) (iblk m c 0 t) (iblk m c 2 t) (iblk m c 3 t)
          (keysArr m c (batchOf t.val t.isLt)) (valuesArr m c (batchOf t.val t.isLt)) (iblk m c 8 t) (iblk m c 9 t) := by
  by_cases h0 : t.val % 4 = 0
  · rw [block_first m c t h0, keys_point, values_point]
  · have hN : cfg0.N = 32 := N_0
    have hlt : t.val - 1 < cfg0.N := Nat.lt_of_le_of_lt (Nat.sub_le _ _) t.isLt
    have hp := carried m c (t.val - 1) hlt
    have hb : batchOf (t.val - 1) hlt = batchOf t.val t.isLt :=
      Fin.ext (by show (t.val - 1) / 4 = t.val / 4; omega)
    rw [block_later m c t h0, hp.1, hp.2, hb]

/-- Entry (0, r, d) of the output block of point t is the formula's value at batch t / 4, row 1024·(t % 4) + r. -/
theorem block_entry (t : Fin cfg0.N) (u : Fin 1) (r : Fin 1024) (d : Fin 512) (b : Fin 8) (n : Fin 4096)
    (hb : b.val = t.val / 4) (hn : n.val = 1024 * (t.val % 4) + r.val) :
    (outsAt0 m c t.val t.isLt).1 (ix3 u r d)
      = outAt scaleWord negInfWord (argX m c) (argCtx m c) (argWq m c) (argBq m c) (argWk m c) (argBk m c) (argWv m c) (argBv m c) (argWo m c) (argBo m c) b n d := by
  have hbt : batchOf t.val t.isLt = b := Fin.ext hb.symm
  rw [block_at, hbt]
  unfold Pieces.outBlock
  refine (Payloads.block_apply (iblk m c 0 t) (iblk m c 2 t) (iblk m c 3 t) (keysArr m c b) (valuesArr m c b)
    (iblk m c 8 t) (iblk m c 9 t) u r d).trans ?_
  rw [attendScaledQuery_eq_attend scale_nonneg scale_ne_top, Blocks.wq_block, Blocks.bq_block, Blocks.wo_block,
    Blocks.bo_block]
  have e0 : (fun k => (iblk m c 0 t : Vec Ideal S1x1024x512 .f32) (ix3 (0 : Fin 1) r k)) = row3 (argX m c) b n :=
    funext fun k => Blocks.x_block m c t r k b n hb hn
  rw [e0, Blocks.x_block m c t r d b n hb hn]
  rfl

/-- WHAT POINT t WRITES BACK is block t of the formula's array. -/
theorem flushed_eq (t : Fin cfg0.N) :
    (dats m 0 c).flushed 10 t = ((cfg0.win 10).blk t).view.read (Elt Ideal) (result m c) := by
  rw [Value.flushed10]
  funext y
  obtain ⟨u, r, d, rfl⟩ : ∃ (u : Fin 1) (r : Fin 1024) (d : Fin 512), y = ix3 u r d := ⟨y 0, y 1, y 2, eq_ix3 y⟩
  rw [View.read_apply]
  have hN : cfg0.N = 32 := N_0
  have hr : r.val < 1024 := r.isLt
  have hb : t.val / 4 < 8 := by have := t.isLt; omega
  have hn : 1024 * (t.val % 4) + r.val < 4096 := by omega
  show (outsAt0 m c t.val t.isLt).1 (ix3 u r d) = result m c (((cfg0.win 10).blk t).view.emb (ix3 u r d))
  rw [Blocks.out_emb t u r d ⟨t.val / 4, hb⟩ ⟨1024 * (t.val % 4) + r.val, hn⟩ rfl rfl,
    block_entry m c t u r d ⟨t.val / 4, hb⟩ ⟨1024 * (t.val % 4) + r.val, hn⟩ rfl rfl]
  rfl

/-- So the result array ends holding the formula's array: the 32 output blocks tile it. -/
theorem final : (dats m 0 c).arrAt 10 cfg0.N = result m c :=
  (dats m 0 c).arrAt_eq_of_cover 10 (result m c) (fun t _ => flushed_eq m c t) Blocks.covered

/-- THE KERNEL'S RUN, read: every weakly fair execution terminates with the result array at the formula's array of the
    launch contents of the arguments, and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.RunValue

end
-- ==== Proof.Reference.lean ====
/-
  The reference program, stage by stage, read at an index written by coordinates: each stage is the corresponding piece
  of the cross-attention formula, and its result array is the formula's array.

  A stage's element is read from its operands' elements by the generated one-operation lemmas; what is added here is, per
  stage, at which coordinates the operands are read (a broadcast reads its operand's one entry on a unit axis, a
  contraction pairs (b, n, k) with (k, e) or with (b, j, k)) and that the composed term is the named piece: the query,
  key and value rows, the scores, a row's maximum (jax takes max(−∞, the reduction from −∞), which is the reduction),
  the exponentials, their sum (started from the zero word), the weights, their mix of the value rows, the output
  projection plus bias plus the residual.
-/
import proofs.«160911_j26096221290813_2_alg».proof.Proof.Gen.ReferenceIdeal.Read
import proofs.«160911_j26096221290813_2_alg».proof.Proof.Spec
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read CrossAttention

/-- Two functions of an index of a rank-3 (rank-2, rank-1) shape agree when they agree coordinate by coordinate. -/
macro "coords3" : tactic => `(tactic| (funext a; match a with | ⟨0, _⟩ => rfl | ⟨1, _⟩ => rfl | ⟨2, _⟩ => rfl))
macro "coords2" : tactic => `(tactic| (funext a; match a with | ⟨0, _⟩ => rfl | ⟨1, _⟩ => rfl))
macro "coords1" : tactic => `(tactic| (funext a; match a with | ⟨0, _⟩ => rfl))

variable (x0 : (⟨S8x4096x512, .f32⟩ : BufTy).Contents (Elt Ideal)) (x1 : (⟨S8x1024x768, .f32⟩ : BufTy).Contents (Elt Ideal)) (x2 : (⟨S512x512, .f32⟩ : BufTy).Contents (Elt Ideal)) (x3 : (⟨S512, .f32⟩ : BufTy).Contents (Elt Ideal))
  (x4 : (⟨S768x512, .f32⟩ : BufTy).Contents (Elt Ideal)) (x5 : (⟨S512, .f32⟩ : BufTy).Contents (Elt Ideal)) (x6 : (⟨S768x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal))

/-! ## Where each stage reads its operands -/

theorem lidx_v0 (b : Fin 8) (n : Fin 4096) (e k : Fin 512) : lidx_main_v0 (ix3 b n e) k = ix3 b n k := by coords3
theorem ridx_v0 (b : Fin 8) (n : Fin 4096) (e k : Fin 512) : ridx_main_v0 (ix3 b n e) k = ix2 k e := by coords2
theorem idx_v1v2 (b : Fin 8) (n : Fin 4096) (e : Fin 512) : idx_main_v1 (idx_main_v2 (ix3 b n e)) = ix1 e := by coords1
theorem lidx_v4 (b : Fin 8) (j : Fin 1024) (e : Fin 512) (k : Fin 768) : lidx_main_v4 (ix3 b j e) k = ix3 b j k := by coords3
theorem ridx_v4 (b : Fin 8) (j : Fin 1024) (e : Fin 512) (k : Fin 768) : ridx_main_v4 (ix3 b j e) k = ix2 k e := by coords2
theorem idx_v5v6 (b : Fin 8) (j : Fin 1024) (e : Fin 512) : idx_main_v5 (idx_main_v6 (ix3 b j e)) = ix1 e := by coords1
theorem lidx_v8 (b : Fin 8) (j : Fin 1024) (e : Fin 512) (k : Fin 768) : lidx_main_v8 (ix3 b j e) k = ix3 b j k := by coords3
theorem ridx_v8 (b : Fin 8) (j : Fin 1024) (e : Fin 512) (k : Fin 768) : ridx_main_v8 (ix3 b j e) k = ix2 k e := by coords2
theorem idx_v9v10 (b : Fin 8) (j : Fin 1024) (e : Fin 512) : idx_main_v9 (idx_main_v10 (ix3 b j e)) = ix1 e := by coords1
theorem lidx_v12 (b : Fin 8) (n : Fin 4096) (j : Fin 1024) (k : Fin 512) : lidx_main_v12 (ix3 b n j) k = ix3 b n k := by coords3
theorem ridx_v12 (b : Fin 8) (n : Fin 4096) (j : Fin 1024) (k : Fin 512) : ridx_main_v12 (ix3 b n j) k = ix3 b j k := by coords3
theorem idx_v18v19 (b : Fin 8) (n : Fin 4096) (j : Fin 1024) : idx_main_v18 (idx_main_v19 (ix3 b n j)) = ix2 b n := by coords2
theorem idx_v22 (b : Fin 8) (n : Fin 4096) (k : Fin 1024) : idx_main_v22 (ix2 b n) k = ix3 b n k := by coords3
theorem idx_v23v24 (b : Fin 8) (n : Fin 4096) (j : Fin 1024) : idx_main_v23 (idx_main_v24 (ix3 b n j)) = ix2 b n := by coords2
theorem lidx_v26 (b : Fin 8) (n : Fin 4096) (e : Fin 512) (k : Fin 1024) : lidx_main_v26 (ix3 b n e) k = ix3 b n k := by coords3
theorem ridx_v26 (b : Fin 8) (n : Fin 4096) (e : Fin 512) (k : Fin 1024) : ridx_main_v26 (ix3 b n e) k = ix3 b k e := by coords3
theorem lidx_v27 (b : Fin 8) (n : Fin 4096) (d k : Fin 512) : lidx_main_v27 (ix3 b n d) k = ix3 b n k := by coords3
theorem ridx_v27 (b : Fin 8) (n : Fin 4096) (d k : Fin 512) : ridx_main_v27 (ix3 b n d) k = ix2 k d := by coords2
theorem idx_v28v29 (b : Fin 8) (n : Fin 4096) (d : Fin 512) : idx_main_v28 (idx_main_v29 (ix3 b n d)) = ix1 d := by coords1

/-! ## The stages -/

/-- The query rows: x · Wq + bq. -/
theorem query_apply (b : Fin 8) (n : Fin 4096) (e : Fin 512) :
    val_main_v3 (F := Ideal) x0 x2 x3 (ix3 b n e) = queryRow x0 x2 x3 b n e := by
  rw [val_main_v3_apply, val_main_v0_apply, val_main_v2_apply, val_main_v1_apply]
  simp only [lidx_v0, ridx_v0, idx_v1v2]
  rfl

/-- The key rows: ctx · Wk + bk. -/
theorem keys_apply (b : Fin 8) (j : Fin 1024) (e : Fin 512) :
    val_main_v7 (F := Ideal) x1 x4 x5 (ix3 b j e) = projRows x1 x4 x5 b j e := by
  rw [val_main_v7_apply, val_main_v4_apply, val_main_v6_apply, val_main_v5_apply]
  simp only [lidx_v4, ridx_v4, idx_v5v6]
  rfl

/-- The value rows: ctx · Wv + bv. -/
theorem values_apply (b : Fin 8) (j : Fin 1024) (e : Fin 512) :
    val_main_v11 (F := Ideal) x1 x6 x7 (ix3 b j e) = projRows x1 x6 x7 b j e := by
  rw [val_main_v11_apply, val_main_v8_apply, val_main_v10_apply, val_main_v9_apply]
  simp only [lidx_v8, ridx_v8, idx_v9v10]
  rfl

/-- The scores of query position (b, n): the inner products with the key rows, then the scale. -/
theorem scores_apply (b : Fin 8) (n : Fin 4096) (j : Fin 1024) :
    val_main_v14 (F := Ideal) x0 x1 x2 x3 x4 x5 (ix3 b n j)
      = score scaleWord (queryRow x0 x2 x3 b n) (projRows x1 x4 x5 b) j := by
  rw [val_main_v14_apply, val_main_v12_apply, val_main_v13_apply, val_main_cst_apply]
  simp only [lidx_v12, ridx_v12, query_apply, keys_apply]
  rfl

/-- The largest score of the row (b, n). -/
theorem rowMax_apply (b : Fin 8) (n : Fin 4096) :
    val_main_v17 (F := Ideal) x0 x1 x2 x3 x4 x5 (ix2 b n)
      = rowMax negInfWord (score scaleWord (queryRow x0 x2 x3 b n) (projRows x1 x4 x5 b)) := by
  rw [val_main_v17_apply, val_main_v16_apply, val_main_cst_1_apply]
  unfold val_main_v15
  rw [Host.reduce_eq_fold_single FloatOps.maximumf _ _ reducesTo_S8x4096x1024_S8x4096_d2 (by decide) h_S_ (ix2 b n)]
  have e : (val_main_v14 (F := Ideal) x0 x1 x2 x3 x4 x5 ∘ (by decide : S8x4096x1024.Reduces [2] S8x4096).lift (ix2 b n))
      = score scaleWord (queryRow x0 x2 x3 b n) (projRows x1 x4 x5 b) := by
    funext k
    refine Eq.trans (congrArg (val_main_v14 (F := Ideal) x0 x1 x2 x3 x4 x5) ?_) (scores_apply x0 x1 x2 x3 x4 x5 b n k)
    coords3
  rw [e]
  exact max_rowMax _ _

/-- The exponentials of the shifted scores. -/
theorem exps_apply (b : Fin 8) (n : Fin 4096) (j : Fin 1024) :
    val_main_v21 (F := Ideal) x0 x1 x2 x3 x4 x5 (ix3 b n j)
      = Ideal.exp (score scaleWord (queryRow x0 x2 x3 b n) (projRows x1 x4 x5 b) j
          - rowMax negInfWord (score scaleWord (queryRow x0 x2 x3 b n) (projRows x1 x4 x5 b))) := by
  rw [val_main_v21_apply, val_main_v20_apply, val_main_v19_apply, val_main_v18_apply, idx_v18v19, rowMax_apply,
    scores_apply]
  rfl

/-- Their sum over the row, started from the zero word. -/
theorem expSum_apply (b : Fin 8) (n : Fin 4096) :
    val_main_v22 (F := Ideal) x0 x1 x2 x3 x4 x5 (ix2 b n)
      = ∑ j : Fin 1024, Ideal.exp (score scaleWord (queryRow x0 x2 x3 b n) (projRows x1 x4 x5 b) j
          - rowMax negInfWord (score scaleWord (queryRow x0 x2 x3 b n) (projRows x1 x4 x5 b))) := by
  rw [val_main_v22_apply, val_main_cst_2_apply]
  simp only [idx_v22, exps_apply]
  show Ideal.ofBits .f32 0x00000000#32 + _ = _
  rw [Ideal.ofBits_zero_f32, zero_add]

/-- The softmax weights of the row. -/
theorem weights_apply (b : Fin 8) (n : Fin 4096) (j : Fin 1024) :
    val_main_v25 (F := Ideal) x0 x1 x2 x3 x4 x5 (ix3 b n j)
      = weights negInfWord (score scaleWord (queryRow x0 x2 x3 b n) (projRows x1 x4 x5 b)) j := by
  rw [val_main_v25_apply, val_main_v24_apply, val_main_v23_apply, idx_v23v24, expSum_apply, exps_apply]
  rfl

/-- The attended row: the weights' mix of the value rows. -/
theorem attend_apply (b : Fin 8) (n : Fin 4096) (e : Fin 512) :
    val_main_v26 (F := Ideal) x0 x1 x2 x3 x4 x5 x6 x7 (ix3 b n e)
      = attend scaleWord negInfWord (queryRow x0 x2 x3 b n) (projRows x1 x4 x5 b) (projRows x1 x6 x7 b) e := by
  rw [val_main_v26_apply]
  simp only [lidx_v26, ridx_v26, weights_apply, values_apply]
  rfl

/-- The result: the attended row through the output projection, plus its bias, plus the residual. -/
theorem result_apply (b : Fin 8) (n : Fin 4096) (d : Fin 512) :
    val_main_v31 (F := Ideal) x0 x1 x2 x3 x4 x5 x6 x7 x8 x9 (ix3 b n d)
      = outAt scaleWord negInfWord x0 x1 x2 x3 x4 x5 x6 x7 x8 x9 b n d := by
  rw [val_main_v31_apply, val_main_v30_apply, val_main_v27_apply, val_main_v29_apply, val_main_v28_apply]
  simp only [lidx_v27, ridx_v27, idx_v28v29, attend_apply]
  rfl

/-- THE REFERENCE'S RESULT ARRAY is the cross-attention formula's array. -/
theorem result_eq :
    val_main_v31 (F := Ideal) x0 x1 x2 x3 x4 x5 x6 x7 x8 x9 = out scaleWord negInfWord x0 x1 x2 x3 x4 x5 x6 x7 x8 x9 := by
  funext i
  obtain ⟨b, n, d, rfl⟩ : ∃ (b : Fin 8) (n : Fin 4096) (d : Fin 512), i = ix3 b n d := ⟨i 0, i 1, i 2, eq_ix3 i⟩
  rw [result_apply, out_ix3]

end Cert.ReferenceIdeal.RefValue

end
-- ==== Proof.lean ====
/-
  Cross attention with a residual: the fused kernel against the plain reference, on the extended reals.

  Both programs compute, for batch b, query position n and feature d,
      out[b, n, d] = (Σ_e o[b, n, e] · Wo[e, d] + bo[d]) + x[b, n, d],
  o[b, n, ·] the softmax-weighted mix of the value rows ctx[b] · Wv + bv under the scores of the query row
  x[b, n, ·] · Wq + bq against the key rows ctx[b] · Wk + bk, scaled by c = f32(1/√512) (Proof/Spec.lean).

  The reference computes it whole, stage by stage (Proof/Reference.lean). The kernel walks a grid of 8 batches × 4 query
  tiles of 1024 rows; it computes a batch's key and value rows at the batch's first tile, keeps them in two buffers across
  the batch's other tiles, scales the query row before the score product instead of the score after it, and writes one
  [1024, 512] output block per point (Proof/KernelPieces.lean: what one run of the body leaves; Proof/KernelPayloads.lean:
  the body's arithmetic entry by entry; Proof/KernelBlocks.lean: what the windows read; Proof/KernelValue.lean: the kept
  buffers hold the batch's rows after every point, each point's block is the formula's, the blocks tile the result).
  The two differ only in where the scale is applied, and 0 ≤ c < ⊤ leaves a sum of extended reals term by term; every
  other step is the same exact operation on both sides (a change of float format is the identity, a sum in any order
  or tiling is the sum), so the inputs' finiteness is never used. The ideal pass rewrote nothing.
-/
import proofs.«160911_j26096221290813_2_alg».proof.Defs
import proofs.«160911_j26096221290813_2_alg».proof.Proof.Gen.Kernel
import proofs.«160911_j26096221290813_2_alg».proof.Proof.Gen.Kernel.Skeleton
import proofs.«160911_j26096221290813_2_alg».proof.Proof.Gen.Kernel.Launch
import proofs.«160911_j26096221290813_2_alg».proof.Proof.Gen.Kernel.Points
import proofs.«160911_j26096221290813_2_alg».proof.Proof.Gen.Kernel.Frame
import proofs.«160911_j26096221290813_2_alg».proof.Proof.Gen.KernelIdeal
import proofs.«160911_j26096221290813_2_alg».proof.Proof.Gen.KernelIdeal.Skeleton
import proofs.«160911_j26096221290813_2_alg».proof.Proof.Gen.KernelIdeal.Launch
import proofs.«160911_j26096221290813_2_alg».proof.Proof.Gen.KernelIdeal.Points
import proofs.«160911_j26096221290813_2_alg».proof.Proof.Gen.KernelIdeal.Frame
import proofs.«160911_j26096221290813_2_alg».proof.Proof.Gen.ReferenceIdeal
import proofs.«160911_j26096221290813_2_alg».proof.Proof.Gen.KernelIdeal.Value
import proofs.«160911_j26096221290813_2_alg».proof.Proof.Gen.ReferenceIdeal.Run
import proofs.«160911_j26096221290813_2_alg».proof.Proof.Gen.ReferenceIdeal.Read
import proofs.«160911_j26096221290813_2_alg».proof.Proof.Gen.Pre_finite_inputs
import proofs.«160911_j26096221290813_2_alg».proof.Proof.KernelValue
import proofs.«160911_j26096221290813_2_alg».proof.Proof.Reference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories agreeing on the arguments both programs end with the cross-attention formula's array of those
    arguments in their result arrays. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq]
  obtain ⟨a0, a1, a2, a3, a4, a5, a6, a7, a8, a9⟩ := hagree c
  rw [a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
